-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S8192x4096 .f32) (main_arg1 : FVec F S8192x4096 .f32) (main_arg2 : FVec F S4096x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Kernel.lean ====
abbrev S8192x4096 : Shape := ⟨2, ![8192, 4096]⟩
abbrev S4096x64 : Shape := ⟨2, ![4096, 64]⟩
abbrev S64x4096 : Shape := ⟨2, ![64, 4096]⟩
abbrev S512x4096 : Shape := ⟨2, ![512, 4096]⟩
abbrev S512x64 : Shape := ⟨2, ![512, 64]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x64, .f32⟩
  | .hbm, ⟨3, _⟩ => ⟨S64x4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x64, .f32⟩
  | .local _ .vmem, ⟨5, _⟩ => ⟨S64x4096, .f32⟩
  | .local _ .vmem, ⟨6, _⟩ => ⟨S512x4096, .f32⟩
  | .local _ .vmem, ⟨7, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x64_S64x4096_1_0 : S4096x64.Transposes [1, 0] S64x4096
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  dot_S512x4096_S4096x64_S512x64_1_0_0_1_n_n_wf : DotDims.WF S512x4096 S4096x64 S512x64 [1] [0] [0] [1] [] []
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x64 : Shape := ⟨2, ![4096, 64]⟩
abbrev S64x4096 : Shape := ⟨2, ![64, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x64, .f32⟩
  | .hbm, ⟨3, _⟩ => ⟨S64x4096, .f32⟩
  | .hbm, ⟨4, _⟩ => ⟨S4096x4096, .f32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8192x4096, .f32⟩
  | .hbm, ⟨15, _⟩ => ⟨S4096x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S_S4096x4096 : S_.BroadcastsInDim S4096x4096 (![] : Fin 0 → Fin S4096x4096.rank)
  transposes_S4096x4096_S4096x4096_1_0 : S4096x4096.Transposes [1, 0] S4096x4096
  dot_S4096x64_S64x4096_S4096x4096_1_0_0_1_n_n_wf : DotDims.WF S4096x64 S64x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Finite.lean ====
/-
  From the precondition to finiteness. The precondition says of each of the three argument arrays that
  `|x| < +∞` at every index (a conjunction of three all-reductions, each over one array). On the extended
  reals `|x| = max x (-x)`, which is `+∞` exactly at the two infinities, so every entry is a real number.
-/
import proofs.«134965_j48773648613447_2_alg».proof.Pre_finite_inputs
import proofs.«134965_j48773648613447_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.LowRank

open Idealize.ShloMosaic Cert.Pre_finite_inputs
open Cert.LibFinite (finite_of_abs_lt)

instance : Subsingleton S_.Idx := ⟨fun a b => funext fun d => d.elim0⟩

variable [Facts]

/-- Under the precondition every entry of the source, the target and the weight is finite. -/
theorem finite_of_pre (x0 x1 : FVec Ideal S8192x4096 .f32) (x2 : FVec Ideal S4096x64 .f32)
    (h : fn (F := Ideal) x0 x1 x2 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) := by
  have h0 := congrFun h ValueIdx.ix0
  dsimp only [fn] at h0
  obtain ⟨h01, hC⟩ := IntOp.andi_eq_one.1 h0
  obtain ⟨hA, hB⟩ := IntOp.andi_eq_one.1 h01
  refine ⟨fun i => ?_, fun i => ?_, fun i => ?_⟩
  · have e := Host.reduce_andi_all _ _ _ _ _ hA i
    refine finite_of_abs_lt (x0 i) ?_
    rw [← e]
    rfl
  · have e := Host.reduce_andi_all _ _ _ _ _ hB i
    refine finite_of_abs_lt (x1 i) ?_
    rw [← e]
    rfl
  · have e := Host.reduce_andi_all _ _ _ _ _ hC i
    refine finite_of_abs_lt (x2 i) ?_
    rw [← e]
    rfl

end Cert.LowRank

end
-- ==== Proof.Spec.lean ====
/-
  The specification: the result array as ONE function of the three argument arrays.

  With `s` the source and `t` the target (both 8192 × 4096) and `w` the weight (4096 × 64), entry `(n, d)` is
      t (n, d) + ∑ r, (∑ k, (s (n, k) - t (n, k)) * w (k, r)) * w (d, r),
  the target moved along the rank-64 projection of the difference: first the difference's row against the
  weight's columns, then that 64-vector against row `d` of the weight.
-/
import Idealize.ShloMosaic.PureOps.Ideal
import Idealize.ShloMosaic.Lib.ValueIdx

noncomputable section

namespace Cert.LowRank

open Idealize.ShloMosaic Idealize.ShloMosaic.ValueIdx

/-- The arrays' shapes. -/
abbrev SND : Shape := ⟨2, ![8192, 4096]⟩
abbrev SDR : Shape := ⟨2, ![4096, 64]⟩

/-- Entry `(n, d)` of the result. -/
def entry (s t : SND.Idx → EReal) (w : SDR.Idx → EReal) (n : Fin 8192) (d : Fin 4096) : EReal :=
  t (ix2 n d) + ∑ r : Fin 64, (∑ k : Fin 4096, (s (ix2 n k) - t (ix2 n k)) * w (ix2 k r)) * w (ix2 d r)

/-- The result array. -/
def G (s t : SND.Idx → EReal) (w : SDR.Idx → EReal) : SND.Idx → EReal :=
  fun i => entry s t w (i 0) (i 1)

end Cert.LowRank

end
-- ==== Proof.RealLaw.lean ====
/-
  The one algebraic law that joins the two programs, over abstract finite index types.

  Fix a row of the source `s`, the same row of the target `t`, and the weight `w` (rows indexed like the
  row's entries, columns by the rank). Write `P d k = ∑ r, w d r * w k r` for the projector's entry. The
  reference forms `∑ k, t k * (δ d k - P d k) + ∑ k, s k * P d k`; the kernel forms
  `t d + ∑ r, (∑ k, (s k - t k) * w k r) * w d r`. Over the reals these agree: the Kronecker delta picks
  `t d`, the two sums against `P` combine into one sum of `(s k - t k) * P d k`, and exchanging the order
  of summation moves `w d r` outside the inner sum. On the extended reals the same identity holds when
  every entry is finite, because then every term is the image of a real number.
-/
import Idealize.ShloMosaic.PureOps.Ideal
import proofs.«134965_j48773648613447_2_alg».proof.Proof.LibFinite

namespace Cert.LowRank

open Cert.LibFinite (coe_sum)

/-- The law over the reals. -/
theorem real_law {K R : Type*} [Fintype K] [Fintype R] [DecidableEq K] (s t : K → ℝ) (w : K → R → ℝ) (d : K) :
    (∑ k, t k * ((if d = k then (1 : ℝ) else 0) - ∑ r, w d r * w k r)) + ∑ k, s k * ∑ r, w d r * w k r
      = t d + ∑ r, (∑ k, (s k - t k) * w k r) * w d r := by
  have e1 : ∑ r, (∑ k, (s k - t k) * w k r) * w d r = ∑ k, (s k - t k) * ∑ r, w d r * w k r := by
    simp only [Finset.sum_mul, Finset.mul_sum]
    rw [Finset.sum_comm]
    exact Finset.sum_congr rfl fun k _ => Finset.sum_congr rfl fun r _ => by ring
  rw [e1]
  simp only [mul_sub, sub_mul, Finset.sum_sub_distrib, mul_ite, mul_one, mul_zero, Finset.sum_ite_eq,
    Finset.mem_univ, if_true]
  ring

/-- The law on the extended reals, for finite entries; `e k` is the identity matrix's entry `(d, k)`. -/
theorem ereal_law {K R : Type*} [Fintype K] [Fintype R] [DecidableEq K] (s t : K → EReal) (w : K → R → EReal)
    (e : K → EReal) (d : K)
    (hs : ∀ k, s k ≠ ⊤ ∧ s k ≠ ⊥) (ht : ∀ k, t k ≠ ⊤ ∧ t k ≠ ⊥) (hw : ∀ k r, w k r ≠ ⊤ ∧ w k r ≠ ⊥)
    (he : ∀ k, e k = ((if d = k then (1 : ℝ) else 0 : ℝ) : EReal)) :
    (∑ k, t k * (e k - ∑ r, w d r * w k r)) + ∑ k, s k * ∑ r, w d r * w k r
      = t d + ∑ r, (∑ k, (s k - t k) * w k r) * w d r := by
  obtain ⟨s', rfl⟩ : ∃ s' : K → ℝ, s = fun k => (s' k : EReal) :=
    ⟨fun k => (s k).toReal, funext fun k => (EReal.coe_toReal (hs k).1 (hs k).2).symm⟩
  obtain ⟨t', rfl⟩ : ∃ t' : K → ℝ, t = fun k => (t' k : EReal) :=
    ⟨fun k => (t k).toReal, funext fun k => (EReal.coe_toReal (ht k).1 (ht k).2).symm⟩
  obtain ⟨w', rfl⟩ : ∃ w' : K → R → ℝ, w = fun k r => (w' k r : EReal) :=
    ⟨fun k r => (w k r).toReal, funext fun k => funext fun r => (EReal.coe_toReal (hw k r).1 (hw k r).2).symm⟩
  simp only [he, ← EReal.coe_mul, ← coe_sum, ← EReal.coe_sub, ← EReal.coe_add]
  exact congrArg _ (real_law s' t' w' d)

end Cert.LowRank
-- ==== Proof.RefIsG.lean ====
/-
  The reference computes the specification, when every entry is finite.

  Read one stage at a time at the index `(n, d)`: the projector's entry is `P (a, b) = ∑ r, w (a, r) * w (b, r)`
  (the weight against its own transpose); the identity matrix's entry is the comparison of the two coordinate
  counters converted to a float, that is `1` on the diagonal and `0` off it; the two big products contract the
  4096 columns of the target against `(I - P)` transposed and of the source against `P` transposed, so they read
  `I - P` and `P` at `(d, k)`. That is the left side of the law of `RealLaw`, whose right side is the
  specification's entry.
-/
import proofs.«134965_j48773648613447_2_alg».proof.Proof.Gen.ReferenceIdeal.Read
import proofs.«134965_j48773648613447_2_alg».proof.Proof.Spec
import proofs.«134965_j48773648613447_2_alg».proof.Proof.RealLaw

noncomputable section

namespace Cert.LowRank

open Idealize.ShloMosaic Idealize.ShloMosaic.ValueIdx Cert.ReferenceIdeal Cert.ReferenceIdeal.Read

/-- The identity matrix's entry `(d, k)`: the row counter (plus the zero offset) compared for equality with the
    column counter, as a float. -/
theorem eye_entry (d k : Fin 4096) :
    FloatOps.uitofp (F := Ideal) .f32 (IntOp.cmpi .eq (IntOp.addi (BitVec.ofNat 32 d.val) 0#32) (BitVec.ofNat 32 k.val))
      = (((if d = k then (1 : ℝ) else 0 : ℝ)) : EReal) := by
  have hd : (BitVec.ofNat 32 d.val + 0#32 == BitVec.ofNat 32 k.val) = decide (d = k) := by
    rw [BitVec.add_zero]
    by_cases h : d = k
    · subst h; simp
    · have hne : BitVec.ofNat 32 d.val ≠ BitVec.ofNat 32 k.val := fun e => h (Fin.ext (by
        have e' := congrArg BitVec.toNat e
        simp only [BitVec.toNat_ofNat] at e'
        have := d.isLt; have := k.isLt; omega))
      simp [h, hne]
  show ((((BitVec.ofBool (BitVec.ofNat 32 d.val + 0#32 == BitVec.ofNat 32 k.val)).toNat : ℕ) : ℝ) : EReal) = _
  rw [hd]
  by_cases h : d = k <;> simp [h]

/-! ## The stages' index maps, at coordinates -/

theorem l10 (n : Fin 8192) (d k : Fin 4096) : lidx_main_v10 (ix2 n d) k = ix2 n k :=
  funext fun a => Fin.ext (by match a with | ⟨0, _⟩ => rfl | ⟨1, _⟩ => rfl)
theorem r10 (n : Fin 8192) (d k : Fin 4096) : ridx_main_v10 (ix2 n d) k = ix2 k d :=
  funext fun a => Fin.ext (by match a with | ⟨0, _⟩ => rfl | ⟨1, _⟩ => rfl)
theorem l12 (n : Fin 8192) (d k : Fin 4096) : lidx_main_v12 (ix2 n d) k = ix2 n k :=
  funext fun a => Fin.ext (by match a with | ⟨0, _⟩ => rfl | ⟨1, _⟩ => rfl)
theorem r12 (n : Fin 8192) (d k : Fin 4096) : ridx_main_v12 (ix2 n d) k = ix2 k d :=
  funext fun a => Fin.ext (by match a with | ⟨0, _⟩ => rfl | ⟨1, _⟩ => rfl)
theorem t9 (k d : Fin 4096) : idx_main_v9 (ix2 k d) = ix2 d k :=
  funext fun a => Fin.ext (by match a with | ⟨0, _⟩ => rfl | ⟨1, _⟩ => rfl)
theorem t11 (k d : Fin 4096) : idx_main_v11 (ix2 k d) = ix2 d k :=
  funext fun a => Fin.ext (by match a with | ⟨0, _⟩ => rfl | ⟨1, _⟩ => rfl)
theorem l1 (d k : Fin 4096) (r : Fin 64) : lidx_main_v1 (ix2 d k) r = ix2 d r :=
  funext fun a => Fin.ext (by match a with | ⟨0, _⟩ => rfl | ⟨1, _⟩ => rfl)
theorem r1 (d k : Fin 4096) (r : Fin 64) : ridx_main_v1 (ix2 d k) r = ix2 r k :=
  funext fun a => Fin.ext (by match a with | ⟨0, _⟩ => rfl | ⟨1, _⟩ => rfl)
theorem t0 (r : Fin 64) (k : Fin 4096) : idx_main_v0 (ix2 r k) = ix2 k r :=
  funext fun a => Fin.ext (by match a with | ⟨0, _⟩ => rfl | ⟨1, _⟩ => rfl)

/-! ## The stages at coordinates -/

/-- The projector's entry: the weight's row `a` against its row `b`. -/
theorem proj_apply (x2 : FVec Ideal S4096x64 .f32) (a b : Fin 4096) :
    val_main_v1 (F := Ideal) x2 (ix2 a b) = ∑ r : Fin 64, x2 (ix2 a r) * x2 (ix2 b r) := by
  rw [val_main_v1_apply]
  refine Finset.sum_congr rfl fun r _ => ?_
  rw [val_main_v0_apply, l1, r1, t0]

/-- The identity minus the projector, at `(a, b)`. -/
theorem comp_apply (x2 : FVec Ideal S4096x64 .f32) (a b : Fin 4096) :
    val_main_v8 (F := Ideal) x2 (ix2 a b)
      = FloatOps.uitofp (F := Ideal) .f32 (IntOp.cmpi .eq (IntOp.addi (BitVec.ofNat 32 a.val) 0#32) (BitVec.ofNat 32 b.val))
        - ∑ r : Fin 64, x2 (ix2 a r) * x2 (ix2 b r) := by
  rw [val_main_v8_apply, proj_apply]
  rfl

/-- The reference's result is the specification. -/
theorem ref_eq_G (x0 x1 : FVec Ideal S8192x4096 .f32) (x2 : FVec Ideal S4096x64 .f32)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥) :
    val_main_v13 (F := Ideal) x0 x1 x2 = G x0 x1 x2 := by
  funext i
  obtain ⟨n, d, rfl⟩ : ∃ (n : Fin 8192) (d : Fin 4096), i = ix2 n d := ⟨i 0, i 1, eq_ix2 i⟩
  have e10 : val_main_v10 (F := Ideal) x1 x2 (ix2 n d)
      = ∑ k : Fin 4096, x1 (ix2 n k) * (FloatOps.uitofp (F := Ideal) .f32 (IntOp.cmpi .eq (IntOp.addi (BitVec.ofNat 32 d.val) 0#32) (BitVec.ofNat 32 k.val))
        - ∑ r : Fin 64, x2 (ix2 d r) * x2 (ix2 k r)) := by
    rw [val_main_v10_apply]
    refine Finset.sum_congr rfl fun k _ => ?_
    rw [val_main_v9_apply, l10, r10, t9, comp_apply]
  have e12 : val_main_v12 (F := Ideal) x0 x2 (ix2 n d)
      = ∑ k : Fin 4096, x0 (ix2 n k) * ∑ r : Fin 64, x2 (ix2 d r) * x2 (ix2 k r) := by
    rw [val_main_v12_apply]
    refine Finset.sum_congr rfl fun k _ => ?_
    rw [val_main_v11_apply, l12, r12, t11, proj_apply]
  rw [val_main_v13_apply, e10, e12]
  show _ = entry x0 x1 x2 n d
  unfold entry
  exact ereal_law (fun k => x0 (ix2 n k)) (fun k => x1 (ix2 n k)) (fun k r => x2 (ix2 k r))
    (fun k => FloatOps.uitofp (F := Ideal) .f32 (IntOp.cmpi .eq (IntOp.addi (BitVec.ofNat 32 d.val) 0#32) (BitVec.ofNat 32 k.val)))
    d (fun k => h0 _) (fun k => h1 _) (fun k r => h2 _) (fun k => eye_entry d k)

end Cert.LowRank

end
-- ==== Proof.Payload.lean ====
/-
  The kernel body's stored value, read at an index of its block.

  The body loads a 512-row block `x0` of the source and `x1` of the target, the whole weight `x2` (4096 × 64)
  and the whole transposed weight `x3` (64 × 4096), and stores `x1 + ((x0 - x1) · x2) · x3`. Both products
  accumulate into a zero block, so on the extended reals each is the plain sum over its contracted axis:
  at row `p` and column `q` the stored value is
      x1 (p, q) + ∑ r, (∑ k, (x0 (p, k) - x1 (p, k)) * x2 (k, r)) * x3 (r, q).
-/
import proofs.«134965_j48773648613447_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.LowRank

open Idealize.ShloMosaic Idealize.ShloMosaic.ValueIdx Cert.KernelIdeal Cert.KernelIdeal.Gen

/-! ## The contraction through the 4096 columns: rows of the difference against columns of the weight -/

theorem down_l0 (i : S512x64.Idx) (q : dot_S512x4096_S4096x64_S512x64_1_0_0_1_n_n.contr.Idx) : (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem down_l1 (i : S512x64.Idx) (q : dot_S512x4096_S4096x64_S512x64_1_0_0_1_n_n.contr.Idx) : (dot_S512x4096_S4096x64_S512x64_1_0_0_1_n_n.lhsIdx i q 1).val = (q ⟨0, by decide⟩).val :=
  dot_S512x4096_S4096x64_S512x64_1_0_0_1_n_n.lhsIdx_val_of_single rfl i q
theorem down_r0 (i : S512x64.Idx) (q : dot_S512x4096_S4096x64_S512x64_1_0_0_1_n_n.contr.Idx) : (dot_S512x4096_S4096x64_S512x64_1_0_0_1_n_n.rhsIdx i q 0).val = (q ⟨0, by decide⟩).val :=
  dot_S512x4096_S4096x64_S512x64_1_0_0_1_n_n.rhsIdx_val_of_single rfl i q
theorem down_r1 (i : S512x64.Idx) (q : dot_S512x4096_S4096x64_S512x64_1_0_0_1_n_n.contr.Idx) : (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- Entry `(p, r)` of a 512 × 4096 block times the 4096 × 64 weight, into zero: the sum over the 4096 shared coordinates. -/
theorem down_apply (a : FVec Ideal S512x4096 .f32) (b : FVec Ideal S4096x64 .f32) (p : Fin 512) (q : Fin 64) :
    matmul dot_S512x4096_S4096x64_S512x64_1_0_0_1_n_n (some .fp32) a b (constant (F := Ideal) S512x64 .f32 0x00000000#32) (ix2 p q)
      = ∑ k : Fin 4096, a (ix2 p k) * b (ix2 k q) := by
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q) ((contrEquiv1 dot_S512x4096_S4096x64_S512x64_1_0_0_1_n_n 4096 rfl rfl).symm k) = ix2 p k := funext fun c => Fin.ext (by
    match c with
    | ⟨0, _⟩ => exact down_l0 _ _
    | ⟨1, _⟩ => exact (down_l1 _ _).trans hk)
  have er : dot_S512x4096_S4096x64_S512x64_1_0_0_1_n_n.rhsIdx (ix2 p q) ((contrEquiv1 dot_S512x4096_S4096x64_S512x64_1_0_0_1_n_n 4096 rfl rfl).symm k) = ix2 k q := funext fun c => Fin.ext (by
    match c with
    | ⟨0, _⟩ => exact (down_r0 _ _).trans hk
    | ⟨1, _⟩ => exact down_r1 _ _)
  rw [el, er]

/-! ## The contraction through the rank: the 64 projected coordinates against rows of the transposed weight -/

theorem up_l0 (i : S512x4096.Idx) (q : dot_S512x64_S64x4096_S512x4096_1_0_0_1_n_n.contr.Idx) : (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem up_l1 (i : S512x4096.Idx) (q : dot_S512x64_S64x4096_S512x4096_1_0_0_1_n_n.contr.Idx) : (dot_S512x64_S64x4096_S512x4096_1_0_0_1_n_n.lhsIdx i q 1).val = (q ⟨0, by decide⟩).val :=
  dot_S512x64_S64x4096_S512x4096_1_0_0_1_n_n.lhsIdx_val_of_single rfl i q
theorem up_r0 (i : S512x4096.Idx) (q : dot_S512x64_S64x4096_S512x4096_1_0_0_1_n_n.contr.Idx) : (dot_S512x64_S64x4096_S512x4096_1_0_0_1_n_n.rhsIdx i q 0).val = (q ⟨0, by decide⟩).val :=
  dot_S512x64_S64x4096_S512x4096_1_0_0_1_n_n.rhsIdx_val_of_single rfl i q
theorem up_r1 (i : S512x4096.Idx) (q : dot_S512x64_S64x4096_S512x4096_1_0_0_1_n_n.contr.Idx) : (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl

/-- Entry `(p, q)` of a 512 × 64 block times the 64 × 4096 transposed weight, into zero: the sum over the 64 shared coordinates. -/
theorem up_apply (a : FVec Ideal S512x64 .f32) (b : FVec Ideal S64x4096 .f32) (p : Fin 512) (q : Fin 4096) :
    matmul dot_S512x64_S64x4096_S512x4096_1_0_0_1_n_n (some .fp32) a b (constant (F := Ideal) S512x4096 .f32 0x00000000#32) (ix2 p q)
      = ∑ k : Fin 64, a (ix2 p k) * b (ix2 k q) := by
  simp only [matmul]
  rw [Ideal.matmul_constant_zero_apply, ← Equiv.sum_comp (contrEquiv1 dot_S512x64_S64x4096_S512x4096_1_0_0_1_n_n 64 rfl rfl).symm]
  refine Finset.sum_congr rfl fun k _ => ?_
  have hk := contrEquiv1_symm_val dot_S512x64_S64x4096_S512x4096_1_0_0_1_n_n 64 rfl rfl k
  have el : dot_S512x64_S64x4096_S512x4096_1_0_0_1_n_n.lhsIdx (ix2 p q) ((contrEquiv1 dot_S512x64_S64x4096_S512x4096_1_0_0_1_n_n 64 rfl rfl).symm k) = ix2 p k := funext fun c => Fin.ext (by
    match c with
    | ⟨0, _⟩ => exact up_l0 _ _
    | ⟨1, _⟩ => exact (up_l1 _ _).trans hk)
  have er : dot_S512x64_S64x4096_S512x4096_1_0_0_1_n_n.rhsIdx (ix2 p q) ((contrEquiv1 dot_S512x64_S64x4096_S512x4096_1_0_0_1_n_n 64 rfl rfl).symm k) = ix2 k q := funext fun c => Fin.ext (by
    match c with
    | ⟨0, _⟩ => exact (up_r0 _ _).trans hk
    | ⟨1, _⟩ => exact up_r1 _ _)
  rw [el, er]

/-! ## The stored value -/

/-- The body's stored block at row `p`, column `q`. -/
theorem pay_apply (x0 x1 : Vec Ideal S512x4096 .f32) (x2 : Vec Ideal S4096x64 .f32) (x3 : Vec Ideal S64x4096 .f32)
    (p : Fin 512) (q : Fin 4096) :
    k0_pay1 (F := Ideal) x0 x1 x2 x3 (ix2 p q)
      = x1 (ix2 p q) + ∑ r : Fin 64, (∑ k : Fin 4096, (x0 (ix2 p k) - x1 (ix2 p k)) * x2 (ix2 k r)) * x3 (ix2 r q) := by
  unfold k0_pay1
  show x1 (ix2 p q) + matmul dot_S512x64_S64x4096_S512x4096_1_0_0_1_n_n (some .fp32)
      (matmul dot_S512x4096_S4096x64_S512x64_1_0_0_1_n_n (some .fp32) (subf x0 x1) x2 (constant (F := Ideal) S512x64 .f32 0x00000000#32))
      (shapeCast S64x4096 x3 shapeCasts_S64x4096_S64x4096) (constant (F := Ideal) S512x4096 .f32 0x00000000#32) (ix2 p q) = _
  rw [up_apply, shapeCast_self]
  refine congrArg (x1 (ix2 p q) + ·) (Finset.sum_congr rfl fun r _ => ?_)
  rw [down_apply]
  rfl

end Cert.LowRank

end
-- ==== Proof.KernelValue.lean ====
/-
  From the blocks to the whole array: after the run the kernel's result array is the specification `G` of the
  three argument arrays.

  The grid has 16 points. Point `t` works on rows `512 t … 512 t + 511`: its source and target blocks are those
  rows of the two arguments, the weight block is the whole weight at every point, and the fourth block is the
  whole transposed weight, which the host wrote before the launch as the transpose of the weight, so its entry
  `(r, q)` is the weight's entry `(q, r)`. Substituting these into the stored value gives the specification's
  entry `(512 t + p, q)`: point `t` writes back block `t` of `G`. The 16 row blocks cover the array — row `n`
  lies in block `n / 512` — so the array ends holding `G`.
-/
import proofs.«134965_j48773648613447_2_alg».proof.Proof.Gen.KernelIdeal.Value
import proofs.«134965_j48773648613447_2_alg».proof.Proof.Spec
import proofs.«134965_j48773648613447_2_alg».proof.Proof.Payload
import Idealize.ShloMosaic.Lib.Pipeline.Value
import Idealize.ShloMosaic.Lib.StableHlo.Run

noncomputable section

namespace Cert.LowRank

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

/-- Row `p` of block `b` is row `512 b + p` of the array. -/
def rowOf (b : Fin 16) (p : Fin 512) : Fin 8192 :=
  ⟨512 * b.val + p.val, by have := b.isLt; have := p.isLt; omega⟩

/-- The stored value of a point whose blocks are: rows of block `b` of `s` and of `t`, the whole `w`, and `w`
    transposed — at coordinates. -/
theorem block_entry (s t : SND.Idx → EReal) (w : SDR.Idx → EReal)
    (x0 x1 : Vec Ideal S512x4096 .f32) (x2 : Vec Ideal S4096x64 .f32) (x3 : Vec Ideal S64x4096 .f32) (b : Fin 16)
    (h0 : ∀ (p : Fin 512) (k : Fin 4096), x0 (ix2 p k) = s (ix2 (rowOf b p) k))
    (h1 : ∀ (p : Fin 512) (k : Fin 4096), x1 (ix2 p k) = t (ix2 (rowOf b p) k))
    (h2 : ∀ (k : Fin 4096) (r : Fin 64), x2 (ix2 k r) = w (ix2 k r))
    (h3 : ∀ (r : Fin 64) (q : Fin 4096), x3 (ix2 r q) = w (ix2 q r))
    (p : Fin 512) (q : Fin 4096) :
    k0_pay1 (F := Ideal) x0 x1 x2 x3 (ix2 p q) = entry s t w (rowOf b p) q := by
  rw [pay_apply]
  unfold entry
  simp only [h0, h1, h2, h3]

/-- The same at an index `j` of the block and the index `i` of the array it lands on. -/
theorem block_at (s t : SND.Idx → EReal) (w : SDR.Idx → EReal)
    (x0 x1 : Vec Ideal S512x4096 .f32) (x2 : Vec Ideal S4096x64 .f32) (x3 : Vec Ideal S64x4096 .f32) (b : Fin 16)
    (h0 : ∀ (p : Fin 512) (k : Fin 4096), x0 (ix2 p k) = s (ix2 (rowOf b p) k))
    (h1 : ∀ (p : Fin 512) (k : Fin 4096), x1 (ix2 p k) = t (ix2 (rowOf b p) k))
    (h2 : ∀ (k : Fin 4096) (r : Fin 64), x2 (ix2 k r) = w (ix2 k r))
    (h3 : ∀ (r : Fin 64) (q : Fin 4096), x3 (ix2 r q) = w (ix2 q r))
    (j : S512x4096.Idx) (i : SND.Idx)
    (hi0 : (i 0).val = 512 * b.val + (j 0).val) (hi1 : (i 1).val = (j 1).val) :
    k0_pay1 (F := Ideal) x0 x1 x2 x3 j = G s t w i := by
  obtain ⟨p, q, rfl⟩ : ∃ (p : Fin 512) (q : Fin 4096), j = ix2 p q := ⟨j 0, j 1, eq_ix2 j⟩
  obtain ⟨n, d, rfl⟩ : ∃ (n : Fin 8192) (d : Fin 4096), i = ix2 n d := ⟨i 0, i 1, eq_ix2 i⟩
  obtain rfl : n = rowOf b p := Fin.ext hi0
  obtain rfl : d = q := Fin.ext hi1
  exact block_entry s t w x0 x1 x2 x3 b h0 h1 h2 h3 p d

variable (m : (ℓ : Loc nD τ sig) → Buf (Elt Ideal) ℓ) (ρ : Dev nD → PrngReg)

theorem hz : (![0, 0] : Fin 2 → Nat) = fun _ => 0 := funext fun a => by fin_cases a <;> rfl

/-- The transposed weight's array, as the region finds it: the host's transpose of the weight. -/
theorem wt_array (c : Dev nD) :
    (V m c main_v0 : S64x4096.Idx → EReal)
      = transpose S64x4096 [1, 0] (m ((c : Thread nD τ).loc main_arg2)) transposes_S4096x64_S64x4096_1_0 := by
  dsimp only [V, hostOps0]; after_results

/-- Its entry `(r, q)` is the weight's entry `(q, r)`. -/
theorem wt_apply (c : Dev nD) (r : Fin 64) (q : Fin 4096) :
    (V m c main_v0 : S64x4096.Idx → EReal) (ix2 r q) = (m ((c : Thread nD τ).loc main_arg2)) (ix2 q r) :=
  (congrFun (wt_array m c) (ix2 r q)).trans
    (transpose_apply [1, 0] _ transposes_S4096x64_S64x4096_1_0 (ix2 r q) (ix2 q r) (fun b => match b with
      | ⟨0, _⟩ => rfl
      | ⟨1, _⟩ => rfl))

/-- The printed index maps over the grid: the source, target and result windows move one block of rows per point,
    the weight and its transpose stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `G` of the argument arrays. -/
theorem flushed_eq (c : Dev nD) (t : Fin cfg0.N) :
    (dats m 0 c).flushed 4 t = ((cfg0.win 4).blk t).view.read (Elt Ideal) (G (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S512x4096) hz, View.ld_unit_zero (S := S4096x64) hz, View.ld_unit_zero (S := S64x4096) hz]
  obtain ⟨e00, e01, e10, e11, e20, e21, e30, e31, e40, e41⟩ := idx_facts t
  have ht : t.val < 16 := lt_of_lt_of_eq t.isLt (show cfg0.N = 16 from N_0)
  funext j
  show k0_pay1 (F := Ideal) (iblk m c 0 t) (iblk m c 1 t) (iblk m c 2 t) (iblk m c 3 t) j
      = (G (m ((c : Thread nD τ).loc main_arg0)) (m ((c : Thread nD τ).loc main_arg1)) (m ((c : Thread nD τ).loc main_arg2))) (((cfg0.win 4).blk t).view.emb j)
  refine block_at _ _ _ (iblk m c 0 t) (iblk m c 1 t) (iblk m c 2 t) (iblk m c 3 t) ⟨t.val, ht⟩ ?_ ?_ ?_ ?_ j _ ?_ ?_
  · intro p k
    show V m c main_arg0 (((cfg0.win 0).blk t).view.emb (ix2 p k)) = _
    refine (congrFun (V_main_arg0 m c) _).trans (congrArg (m ((c : Thread nD τ).loc main_arg0)) (funext fun a => Fin.ext ?_))
    match a with
    | ⟨0, _⟩ => show win0_0.index t (0 : Fin 2) * 512 + 1 * p.val = 512 * t.val + p.val; rw [e00]; omega
    | ⟨1, _⟩ => show win0_0.index t (1 : Fin 2) * 4096 + 1 * k.val = k.val; rw [e01]; omega
  · intro p k
    show V m c main_arg1 (((cfg0.win 1).blk t).view.emb (ix2 p k)) = _
    refine (congrFun (V_main_arg1 m c) _).trans (congrArg (m ((c : Thread nD τ).loc main_arg1)) (funext fun a => Fin.ext ?_))
    match a with
    | ⟨0, _⟩ => show win0_1.index t (0 : Fin 2) * 512 + 1 * p.val = 512 * t.val + p.val; rw [e10]; omega
    | ⟨1, _⟩ => show win0_1.index t (1 : Fin 2) * 4096 + 1 * k.val = k.val; rw [e11]; omega
  · intro k r
    show V m c main_arg2 (((cfg0.win 2).blk t).view.emb (ix2 k r)) = _
    refine (congrFun (V_main_arg2 m c) _).trans (congrArg (m ((c : Thread nD τ).loc main_arg2)) (funext fun a => Fin.ext ?_))
    match a with
    | ⟨0, _⟩ => show win0_2.index t (0 : Fin 2) * 4096 + 1 * k.val = k.val; rw [e20]; omega
    | ⟨1, _⟩ => show win0_2.index t (1 : Fin 2) * 64 + 1 * r.val = r.val; rw [e21]; omega
  · intro r q
    show (V m c main_v0 : S64x4096.Idx → EReal) (((cfg0.win 3).blk t).view.emb (ix2 r q)) = _
    refine (congrArg (V m c main_v0 : S64x4096.Idx → EReal) (funext fun a => Fin.ext ?_)).trans (wt_apply m c r q)
    match a with
    | ⟨0, _⟩ => show win0_3.index t (0 : Fin 2) * 64 + 1 * r.val = r.val; rw [e30]; omega
    | ⟨1, _⟩ => show win0_3.index t (1 : Fin 2) * 4096 + 1 * q.val = q.val; rw [e31]; omega
  · show win0_4.index t (0 : Fin 2) * 512 + 1 * (j 0).val = 512 * t.val + (j 0).val; rw [e40]; omega
  · show win0_4.index t (1 : Fin 2) * 4096 + 1 * (j 1).val = (j 1).val; rw [e41]; omega

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v1).slice (win0_4.rect t)).set ↔ _
  rw [View.set_slice_whole, Rect.mem_set_unit]
  exact Iff.rfl

/-- Every index of the array is in some point's block: row `n` is in block `n / 512`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e40, ht]; omega
  | ⟨1, _⟩ =>
    show win0_4.index t (1 : Fin 2) * 4096 ≤ (i 1).val ∧ (i 1).val < win0_4.index t (1 : Fin 2) * 4096 + 4096
    rw [e41]; omega

/-- The result array after the run is `G` of the argument arrays. -/
theorem final (c : Dev nD) : (dats m 0 c).arrAt 4 cfg0.N = (G (m ((c : Thread nD τ).loc main_arg0)) (m ((c : Thread nD τ).loc main_arg1)) (m ((c : Thread nD τ).loc main_arg2))) :=
  (dats m 0 c).arrAt_eq_of_cover 4 (G (m ((c : Thread nD τ).loc main_arg0)) (m ((c : Thread nD τ).loc main_arg1)) (m ((c : Thread nD τ).loc main_arg2))) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = (G (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.LowRank

end
-- ==== Proof.lean ====
/-
  A low-rank orthogonal projection, two ways.

  With `s` the source and `t` the target (8192 × 4096 each) and `w` the weight (4096 × 64), write
  `P = w wᵀ` (4096 × 4096). The reference forms `P`, the identity matrix `I` (two coordinate counters compared,
  the truth value converted to a float) and `I - P`, and returns `t (I - P)ᵀ + s Pᵀ`. The kernel never forms
  `P`: in row blocks of 512 it returns `t + ((s - t) w) wᵀ`, the transposed weight prepared once on the host.

  Read on the extended reals, entry `(n, d)` of the kernel's result is
      t (n, d) + ∑ r, (∑ k, (s (n, k) - t (n, k)) * w (k, r)) * w (d, r)
  whatever the inputs (`KernelValue`, over `Payload`: each matrix product into a zero block is the plain sum
  over its contracted axis; the 16 row blocks tile the array). The reference's entry is
      ∑ k, t (n, k) * (δ (d, k) - P (d, k)) + ∑ k, s (n, k) * P (d, k),   P (d, k) = ∑ r, w (d, r) * w (k, r),
  and the two agree when every entry is a real number (`RefIsG` over `RealLaw`: the delta picks `t (n, d)`, the
  sums against `P` combine, and the two summations exchange — distributivity, which the infinities would
  break). The precondition says exactly that every entry is finite (`Finite`).

  The three frames are the generated ones (the reference's is its generated run with the result dropped); the
  idealization rewrote nothing, so its conjunct is `True`.
-/
import proofs.«134965_j48773648613447_2_alg».proof.Defs
import proofs.«134965_j48773648613447_2_alg».proof.Proof.Gen.Kernel
import proofs.«134965_j48773648613447_2_alg».proof.Proof.Gen.Kernel.Frame
import proofs.«134965_j48773648613447_2_alg».proof.Proof.Gen.KernelIdeal
import proofs.«134965_j48773648613447_2_alg».proof.Proof.Gen.KernelIdeal.Frame
import proofs.«134965_j48773648613447_2_alg».proof.Proof.Gen.KernelIdeal.Value
import proofs.«134965_j48773648613447_2_alg».proof.Proof.Gen.ReferenceIdeal
import proofs.«134965_j48773648613447_2_alg».proof.Proof.Gen.ReferenceIdeal.Run
import proofs.«134965_j48773648613447_2_alg».proof.Proof.Gen.ReferenceIdeal.Read
import proofs.«134965_j48773648613447_2_alg».proof.Proof.Gen.Pre_finite_inputs
import proofs.«134965_j48773648613447_2_alg».proof.Proof.Finite
import proofs.«134965_j48773648613447_2_alg».proof.Proof.RefIsG
import proofs.«134965_j48773648613447_2_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, all finite, both programs end with the specification `G` of
    the arguments in their result arrays: the kernel always, the reference by the law for finite entries. -/
theorem algebraic : Cert.algebraic_KernelIdeal_ReferenceIdeal := by
  intro m ρ m' ρ' hpre hagree
  refine ⟨fun c => Cert.LowRank.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.LowRank.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.LowRank.finite_of_pre _ _ _ (hpre c)
  rw [Cert.ReferenceIdeal.Read.val_main_v13_eq, (hagree c).1, (hagree c).2.1, (hagree c).2.2]
  exact Cert.LowRank.ref_eq_G _ _ _ f0 f1 f2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
